-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S256 .f32) (main_arg6 : FVec F S256x128 .f32) (main_arg7 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x256 .f32) (main_arg5 : FVec F S256 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S5000x128 : Shape := ⟨2, ![5000, 128]⟩
abbrev S1x128 : Shape := ⟨2, ![1, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S5000x256 : Shape := ⟨2, ![5000, 256]⟩
abbrev S1x256 : Shape := ⟨2, ![1, 256]⟩

abbrev nBuf : Space → Nat
  | .hbm => 59
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S50000x128, .f32⟩
  | .hbm, ⟨9, _⟩ => ⟨S50000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S650000, .i32⟩
  | .hbm, ⟨25, _⟩ => ⟨S650000, .i1⟩
  | .hbm, ⟨26, _⟩ => ⟨S_, .i32⟩
  | .hbm, ⟨27, _⟩ => ⟨S650000, .i32⟩
  | .hbm, ⟨28, _⟩ => ⟨S650000, .i32⟩
  | .hbm, ⟨29, _⟩ => ⟨S650000, .i32⟩
  | .hbm, ⟨30, _⟩ => ⟨S650000x1, .i32⟩
  | .hbm, ⟨31, _⟩ => ⟨S650000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S650000, .f32⟩
  | .hbm, ⟨42, _⟩ => ⟨S_, .i32⟩
  | .hbm, ⟨43, _⟩ => ⟨S650000, .i32⟩
  | .hbm, ⟨44, _⟩ => ⟨S650000, .i1⟩
  | .hbm, ⟨45, _⟩ => ⟨S_, .i32⟩
  | .hbm, ⟨46, _⟩ => ⟨S650000, .i32⟩
  | .hbm, ⟨47, _⟩ => ⟨S650000, .i32⟩
  | .hbm, ⟨48, _⟩ => ⟨S650000, .i32⟩
  | .hbm, ⟨49, _⟩ => ⟨S650000x1, .i32⟩
  | .hbm, ⟨50, _⟩ => ⟨S650000x128, .f32⟩
  | .hbm, ⟨51, _⟩ => ⟨S650000x1, .f32⟩
  | .hbm, ⟨52, _⟩ => ⟨S650000x128, .f32⟩
  | .hbm, ⟨53, _⟩ => ⟨S650000x128, .f32⟩
  | .hbm, ⟨54, _⟩ => ⟨S_, .f32⟩
  | .hbm, ⟨55, _⟩ => ⟨S50000x128, .f32⟩
  | .hbm, ⟨56, _⟩ => ⟨S650000x1, .i32⟩
  | .hbm, ⟨57, _⟩ => ⟨S50000x128, .f32⟩
  | .hbm, ⟨58, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x256, .f32⟩
  | .local _ .vmem, ⟨9, _⟩ => ⟨S256, .f32⟩
  | .local _ .vmem, ⟨10, _⟩ => ⟨S256x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  dot_S5000x128_S128x128_S5000x128_1_0_0_1_n_n_wf : DotDims.WF S5000x128 S128x128 S5000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x128 : Shape := ⟨2, ![1, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x256 : Shape := ⟨2, ![50000, 256]⟩
abbrev S1x256 : Shape := ⟨2, ![1, 256]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S50000x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S1x600000, .i32⟩
  | .hbm, ⟨17, _⟩ => ⟨S600000, .i32⟩
  | .hbm, ⟨18, _⟩ => ⟨S650000, .i32⟩
  | .hbm, ⟨19, _⟩ => ⟨S_, .f32⟩
  | .hbm, ⟨20, _⟩ => ⟨S650000, .f32⟩
  | .hbm, ⟨21, _⟩ => ⟨S_, .f32⟩
  | .hbm, ⟨22, _⟩ => ⟨S50000, .f32⟩
  | .hbm, ⟨23, _⟩ => ⟨S650000x1, .i32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S650000, .i32⟩
  | .hbm, ⟨28, _⟩ => ⟨S650000, .i1⟩
  | .hbm, ⟨29, _⟩ => ⟨S_, .i32⟩
  | .hbm, ⟨30, _⟩ => ⟨S650000, .i32⟩
  | .hbm, ⟨31, _⟩ => ⟨S650000, .i32⟩
  | .hbm, ⟨32, _⟩ => ⟨S650000, .i32⟩
  | .hbm, ⟨33, _⟩ => ⟨S650000x1, .i32⟩
  | .hbm, ⟨34, _⟩ => ⟨S650000, .f32⟩
  | .hbm, ⟨35, _⟩ => ⟨S_, .i32⟩
  | .hbm, ⟨36, _⟩ => ⟨S650000, .i32⟩
  | .hbm, ⟨37, _⟩ => ⟨S650000, .i1⟩
  | .hbm, ⟨38, _⟩ => ⟨S_, .i32⟩
  | .hbm, ⟨39, _⟩ => ⟨S650000, .i32⟩
  | .hbm, ⟨40, _⟩ => ⟨S650000, .i32⟩
  | .hbm, ⟨41, _⟩ => ⟨S650000, .i32⟩
  | .hbm, ⟨42, _⟩ => ⟨S650000x1, .i32⟩
  | .hbm, ⟨43, _⟩ => ⟨S650000, .f32⟩
  | .hbm, ⟨44, _⟩ => ⟨S650000, .f32⟩
  | .hbm, ⟨45, _⟩ => ⟨S_, .i32⟩
  | .hbm, ⟨46, _⟩ => ⟨S650000, .i32⟩
  | .hbm, ⟨47, _⟩ => ⟨S650000, .i1⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S650000x1, .i32⟩
  | .hbm, ⟨53, _⟩ => ⟨S650000x128, .f32⟩
  | .hbm, ⟨54, _⟩ => ⟨S650000x1, .f32⟩
  | .hbm, ⟨55, _⟩ => ⟨S650000x128, .f32⟩
  | .hbm, ⟨56, _⟩ => ⟨S650000x128, .f32⟩
  | .hbm, ⟨57, _⟩ => ⟨S_, .f32⟩
  | .hbm, ⟨58, _⟩ => ⟨S50000x128, .f32⟩
  | .hbm, ⟨59, _⟩ => ⟨S650000x1, .i32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics both programs compute, stated once over arrays of any extents, entry by entry on the extended reals.

  * A dense layer `A·B + b`: entry `(r, c)` is `∑_q A_{r,q} · B_{q,c} + b_c`.
  * The positive part `max(x, 0)`, entry by entry.
  * The two-layer perceptron `relu(relu(M)·W₁ + b₁)·W₂ + b₂`.

  Every row of a dense layer's result depends on the same row of its left factor only, and the positive part acts entry by
  entry; so a row of the perceptron's result depends on that row of `M` only. This is what lets a computation carried out on
  blocks of rows be read as the computation on the whole array (`affine_congr_row`, `mlp_congr_row`).
-/
import Idealize.ShloMosaic.Lib.ValueIdx
import Idealize.ShloMosaic.PureOps.Ideal.Laws

noncomputable section

open scoped BigOperators

namespace Cert.Spec

open Idealize.ShloMosaic Idealize.ShloMosaic.ValueIdx

/-- One entry of a dense layer: row `r` of `A` against column `c` of `B`, plus the bias's entry `c`. -/
def affineAt {m k n : Nat} (A : FVec Ideal ⟨2, ![m, k]⟩ .f32) (B : FVec Ideal ⟨2, ![k, n]⟩ .f32)
    (b : FVec Ideal ⟨1, ![n]⟩ .f32) (r : Fin m) (c : Fin n) : EReal :=
  (∑ q : Fin k, A (ix2 r q) * B (ix2 q c)) + b (ix1 c)

/-- The dense layer `A·B + b` as an array. -/
def affine {m k n : Nat} (A : FVec Ideal ⟨2, ![m, k]⟩ .f32) (B : FVec Ideal ⟨2, ![k, n]⟩ .f32)
    (b : FVec Ideal ⟨1, ![n]⟩ .f32) : FVec Ideal ⟨2, ![m, n]⟩ .f32 :=
  fun i => affineAt A B b ⟨(i 0).val, idx2_lt0 i⟩ ⟨(i 1).val, idx2_lt1 i⟩

theorem affine_ix2 {m k n : Nat} (A : FVec Ideal ⟨2, ![m, k]⟩ .f32) (B : FVec Ideal ⟨2, ![k, n]⟩ .f32)
    (b : FVec Ideal ⟨1, ![n]⟩ .f32) (r : Fin m) (c : Fin n) : affine A B b (ix2 r c) = affineAt A B b r c := rfl

/-- The positive part, entry by entry (the zero written as the word both programs print for it). -/
def relu {s : Shape} (x : FVec Ideal s .f32) : FVec Ideal s .f32 :=
  fun i => max (x i) (Ideal.ofBits .f32 0x00000000#32)

theorem relu_apply {s : Shape} (x : FVec Ideal s .f32) (i : s.Idx) :
    relu x i = max (x i) (Ideal.ofBits .f32 0x00000000#32) := rfl

/-- The perceptron `relu(relu(M)·W₁ + b₁)·W₂ + b₂`. -/
def mlp {m d h o : Nat} (M : FVec Ideal ⟨2, ![m, d]⟩ .f32) (W₁ : FVec Ideal ⟨2, ![d, h]⟩ .f32) (b₁ : FVec Ideal ⟨1, ![h]⟩ .f32)
    (W₂ : FVec Ideal ⟨2, ![h, o]⟩ .f32) (b₂ : FVec Ideal ⟨1, ![o]⟩ .f32) : FVec Ideal ⟨2, ![m, o]⟩ .f32 :=
  affine (relu (affine (relu M) W₁ b₁)) W₂ b₂

/-- A dense layer's entry depends on its left factor through one row only. -/
theorem affineAt_congr_row {m m' k n : Nat} (A : FVec Ideal ⟨2, ![m, k]⟩ .f32) (A' : FVec Ideal ⟨2, ![m', k]⟩ .f32)
    (B : FVec Ideal ⟨2, ![k, n]⟩ .f32) (b : FVec Ideal ⟨1, ![n]⟩ .f32) (r : Fin m) (r' : Fin m') (c : Fin n)
    (h : ∀ q : Fin k, A (ix2 r q) = A' (ix2 r' q)) : affineAt A B b r c = affineAt A' B b r' c := by
  unfold affineAt
  exact congrArg (· + b (ix1 c)) (Finset.sum_congr rfl fun q _ => congrArg (· * B (ix2 q c)) (h q))

/-- The same for the layer as an array. -/
theorem affine_congr_row {m m' k n : Nat} (A : FVec Ideal ⟨2, ![m, k]⟩ .f32) (A' : FVec Ideal ⟨2, ![m', k]⟩ .f32)
    (B : FVec Ideal ⟨2, ![k, n]⟩ .f32) (b : FVec Ideal ⟨1, ![n]⟩ .f32) (r : Fin m) (r' : Fin m') (c : Fin n)
    (h : ∀ q : Fin k, A (ix2 r q) = A' (ix2 r' q)) : affine A B b (ix2 r c) = affine A' B b (ix2 r' c) := by
  rw [affine_ix2, affine_ix2]
  exact affineAt_congr_row A A' B b r r' c h

/-- A row of the perceptron's result depends on the same row of its input only. -/
theorem mlp_congr_row {m m' d h o : Nat} (M : FVec Ideal ⟨2, ![m, d]⟩ .f32) (M' : FVec Ideal ⟨2, ![m', d]⟩ .f32)
    (W₁ : FVec Ideal ⟨2, ![d, h]⟩ .f32) (b₁ : FVec Ideal ⟨1, ![h]⟩ .f32)
    (W₂ : FVec Ideal ⟨2, ![h, o]⟩ .f32) (b₂ : FVec Ideal ⟨1, ![o]⟩ .f32) (r : Fin m) (r' : Fin m') (c : Fin o)
    (hM : ∀ j : Fin d, M (ix2 r j) = M' (ix2 r' j)) :
    mlp M W₁ b₁ W₂ b₂ (ix2 r c) = mlp M' W₁ b₁ W₂ b₂ (ix2 r' c) := by
  unfold mlp
  refine affine_congr_row _ _ W₂ b₂ r r' c fun q => ?_
  rw [relu_apply, relu_apply]
  refine congrArg (max · _) (affine_congr_row _ _ W₁ b₁ r r' q fun j => ?_)
  rw [relu_apply, relu_apply, hM j]

end Cert.Spec

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«168051_j14551349199047_1_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.KLin.lean ====
/-
  The value the dense-layer kernel leaves in its result array.

  The kernel runs over a grid of ten points. Point `t` reads rows `5000 t … 5000 t + 4999` of the input matrix together
  with the whole weight matrix and the whole bias vector, and writes the same rows of the result. At the ideal values a
  rounding to a narrower format is the identity, so what a point stores is the dense layer `X·W + b` of its block of rows
  (`pay_eq`). A row of a dense layer depends on the same row of its left factor only, so the block a point writes back is
  that block of the dense layer of the WHOLE input (`flushed_eq`); the ten blocks tile the result's rows (`cover`), hence
  the result array ends holding the dense layer of the whole input (`final`).
-/
import proofs.«168051_j14551349199047_1_alg».proof.Proof.Gen.KernelIdeal.Frame
import proofs.«168051_j14551349199047_1_alg».proof.Proof.Spec
import proofs.«168051_j14551349199047_1_alg».proof.Proof.LibRowOps
import Idealize.ShloMosaic.Lib.Pipeline.Value
import Idealize.ShloMosaic.Lib.Tactic

noncomputable section

open scoped BigOperators

namespace Cert.KernelIdeal.LinValue

open Cert.KernelIdeal Cert.KernelIdeal.Gen Idealize.ShloMosaic Idealize.ShloMosaic.TcCoe Idealize.ShloMosaic.ValueIdx Idealize.SL.Sem
open Idealize.ShloMosaic.Pipeline (Dat)

/-- What a point stores is the dense layer of the blocks it loaded: the roundings to the narrower format are the identity
    at the ideal values, and the product accumulated into the zero splat plus the bias laid along every row is the layer. -/
theorem pay_eq (x0 : Vec Ideal S5000x128 .f32) (x1 : Vec Ideal S128x128 .f32) (x2 : Vec Ideal S128 .f32) :
    k0_pay1 (F := Ideal) x0 x1 x2 = Cert.Spec.affine x0 x1 x2 := by
  funext j
  obtain ⟨p, q, rfl⟩ : ∃ (p : Fin 5000) (q : Fin 128), j = ix2 p q := ⟨j 0, j 1, eq_ix2 j⟩
  rw [Cert.Spec.affine_ix2]
  unfold k0_pay1
  refine (Cert.LibRowOps.kernel_affine_apply _ rfl none _ _ x2 _ _ p q).trans ?_
  rfl

variable (V : (c : Dev nD) → (b : Ref sig .tc) → Buf (Elt Ideal) ((c : Thread nD τ).loc b))

theorem hz2 : (![0, 0] : Fin 2 → Nat) = fun _ => 0 := funext fun a => by fin_cases a <;> rfl

theorem hz1 : (![0] : Fin 1 → Nat) = fun _ => 0 := funext fun a => by fin_cases a <;> rfl

/-- The printed index maps over the ten points: the input and the result move one block of rows per point, the weights
    and the bias stay at their only block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The input's block at point `t` is rows `5000 t … 5000 t + 4999` of the input. -/
theorem iblk_x_apply (c : Dev nD) (t : Fin cfg0.N) (x : S5000x128.Idx) (k : S50000x128.Idx)
    (hk0 : (k 0).val = 5000 * t.val + (x 0).val) (hk1 : (k 1).val = (x 1).val) :
    (iblk0 (F := Ideal) V c 0 t : Vec Ideal S5000x128 .f32) x = (V c main_arg0 : S50000x128.Idx → Elt Ideal .f32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weights' block at every point is the whole weight matrix. -/
theorem iblk_w (c : Dev nD) (t : Fin cfg0.N) :
    (iblk0 (F := Ideal) V c 1 t : Vec Ideal S128x128 .f32) = (V c main_arg2 : S128x128.Idx → Elt Ideal .f32) := by
  obtain ⟨-, -, e2, e3, -⟩ := idx_facts t
  funext x
  unfold iblk0
  rw [View.read_apply]
  show V c main_arg2 _ = V c main_arg2 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- The bias's block at every point is the whole bias vector. -/
theorem iblk_b (c : Dev nD) (t : Fin cfg0.N) :
    (iblk0 (F := Ideal) V c 2 t : Vec Ideal S128 .f32) = (V c main_arg3 : S128.Idx → Elt Ideal .f32) := by
  obtain ⟨-, -, -, -, e4, -⟩ := idx_facts t
  funext x
  unfold iblk0
  rw [View.read_apply]
  show V c main_arg3 _ = V c main_arg3 _
  congr 1
  funext a
  apply Fin.ext
  match a with
  | ⟨0, _⟩ => show win0_2.index t 0 * 128 + 1 * (x 0).val = (x 0).val; rw [e4]; omega

/-- The dense layer of point `t`'s block of rows, at an entry, is the dense layer of the whole input at the entry of the
    array that the block's entry is: a row of the layer depends on that row of the input only. -/
theorem affine_block (c : Dev nD) (t : Fin cfg0.N) (W : FVec Ideal S128x128 .f32) (b : FVec Ideal S128 .f32)
    (p : Fin 5000) (q : Fin 128) (k : S50000x128.Idx)
    (hk0 : (k 0).val = 5000 * t.val + p.val) (hk1 : (k 1).val = q.val) :
    Cert.Spec.affine (iblk0 (F := Ideal) V c 0 t : Vec Ideal S5000x128 .f32) W b (ix2 p q)
      = Cert.Spec.affine (V c main_arg0 : FVec Ideal S50000x128 .f32) W b k := by
  obtain ⟨r, s, rfl⟩ : ∃ (r : Fin 50000) (s : Fin 128), k = ix2 r s := ⟨k 0, k 1, eq_ix2 k⟩
  obtain rfl : s = q := Fin.ext hk1
  exact Cert.Spec.affine_congr_row _ _ W b p r s fun j => iblk_x_apply V c t (ix2 p j) (ix2 r j) hk0 rfl

/-- What point `t` writes back is block `t` of the dense layer of the arrays as the kernel finds them. -/
theorem flushed_eq (c : Dev nD) (t : Fin cfg0.N) :
    (dat0 (F := Ideal) V c).flushed 3 t
      = ((cfg0.win 3).blk t).view.read (Elt Ideal) (Cert.Spec.affine (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  rw [pay_eq, iblk_w, iblk_b]
  obtain ⟨-, -, -, -, -, e5, e6⟩ := idx_facts t
  funext j
  obtain ⟨p, q, rfl⟩ : ∃ (p : Fin 5000) (q : Fin 128), j = ix2 p q := ⟨j 0, j 1, eq_ix2 j⟩
  refine affine_block V c t _ _ p q (((cfg0.win 3).blk t).view.emb (ix2 p q)) ?_ ?_
  · show win0_3.index t 0 * 5000 + 1 * p.val = 5000 * t.val + p.val
    rw [e5]; omega
  · show win0_3.index t 1 * 128 + 1 * q.val = q.val
    rw [e6]; omega

/-- Every index of the result is in some point's block: row `r` is in the block of point `r / 5000`. -/
theorem cover (i : S50000x128.Idx) :
    ∃ t : Fin cfg0.N, (cfg0.win 3).flush t = true ∧ i ∈ ((cfg0.win 3).blk t).view.set := by
  have hN : cfg0.N = 10 := N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, e5, e6⟩ := idx_facts t
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 5000 ≤ (i 0).val ∧ (i 0).val < win0_3.index t 0 * 5000 + 5000
    rw [e5]; omega
  | ⟨1, _⟩ =>
    show win0_3.index t 1 * 128 ≤ (i 1).val ∧ (i 1).val < win0_3.index t 1 * 128 + 128
    rw [e6]; omega

/-- The result array after the kernel: the dense layer of the input, the weights and the bias as the kernel finds them. -/
theorem final (c : Dev nD) :
    (dat0 (F := Ideal) V c).arrAt 3 cfg0.N = Cert.Spec.affine (V c main_arg0) (V c main_arg2) (V c main_arg3) :=
  (dat0 V c).arrAt_eq_of_cover 3 _ (fun t _ => flushed_eq V c t) cover

end Cert.KernelIdeal.LinValue

end
-- ==== Proof.KMlp.lean ====
/-
  The value the perceptron kernel leaves in its result array.

  The kernel runs over a grid of ten points. Point `t` reads rows `5000 t … 5000 t + 4999` of the input matrix together
  with both weight matrices and both bias vectors whole, and writes the same rows of the result. At the ideal values a
  rounding to a narrower format is the identity and a cast to the same shape changes nothing, so what a point stores is
  the perceptron `relu(relu(M)·W₁ + b₁)·W₂ + b₂` of its block of rows (`pay_eq`): the outer dense layer is read entry by
  entry, then each entry of its left factor is the positive part of an entry of the inner dense layer, whose left factor
  is in turn the positive part of the block. A row of the perceptron depends on the same row of its input only, so the
  block a point writes back is that block of the perceptron of the WHOLE input (`flushed_eq`); the ten blocks tile the
  result's rows (`cover`), hence the result array ends holding the perceptron of the whole input (`final`).
-/
import proofs.«168051_j14551349199047_1_alg».proof.Proof.Gen.KernelIdeal.Frame
import proofs.«168051_j14551349199047_1_alg».proof.Proof.Spec
import proofs.«168051_j14551349199047_1_alg».proof.Proof.LibRowOps
import Idealize.ShloMosaic.Lib.Pipeline.Value
import Idealize.ShloMosaic.Lib.Tactic

noncomputable section

open scoped BigOperators

namespace Cert.KernelIdeal.MlpValue

open Cert.KernelIdeal Cert.KernelIdeal.Gen Idealize.ShloMosaic Idealize.ShloMosaic.TcCoe Idealize.ShloMosaic.ValueIdx Idealize.SL.Sem
open Idealize.ShloMosaic.Pipeline (Dat)

/-- What a point stores is the perceptron of the blocks it loaded. The outer layer is the product accumulated into the
    zero splat plus its bias laid along every row; an entry of its left factor is the maximum with zero of an entry of the
    inner layer, read the same way; an entry of the inner layer's left factor is the maximum with zero of the block's. -/
theorem pay_eq (x0 : Vec Ideal S5000x128 .f32) (x1 : Vec Ideal S128x256 .f32) (x2 : Vec Ideal S256 .f32)
    (x3 : Vec Ideal S256x128 .f32) (x4 : Vec Ideal S128 .f32) :
    k1_pay1 (F := Ideal) x0 x1 x2 x3 x4 = Cert.Spec.mlp x0 x1 x2 x3 x4 := by
  funext j
  obtain ⟨p, q, rfl⟩ : ∃ (p : Fin 5000) (q : Fin 128), j = ix2 p q := ⟨j 0, j 1, eq_ix2 j⟩
  unfold Cert.Spec.mlp
  rw [Cert.Spec.affine_ix2]
  unfold k1_pay1
  refine (Cert.LibRowOps.kernel_affine_apply _ rfl none _ _ x4 _ _ p q).trans ?_
  unfold Cert.Spec.affineAt
  refine congrArg (· + x4 (ix1 q)) (Finset.sum_congr rfl fun s _ => congrArg (· * x3 (ix2 s q)) ?_)
  refine (truncf_apply (ψ := .bf16) _ bitsLt_bf16_f32 _).trans ?_
  refine (maximumf_apply _ _ _).trans ?_
  rw [Cert.Spec.relu_apply, Cert.Spec.affine_ix2]
  refine congrArg (max · (Ideal.ofBits .f32 0x00000000#32)) ?_
  refine (Cert.LibRowOps.kernel_affine_apply _ rfl none _ _ x2 _ _ p s).trans ?_
  unfold Cert.Spec.affineAt
  refine congrArg (· + x2 (ix1 s)) (Finset.sum_congr rfl fun u _ => congrArg (· * x1 (ix2 u s)) ?_)
  refine (truncf_apply (ψ := .bf16) _ bitsLt_bf16_f32 _).trans ?_
  refine (maximumf_apply _ _ _).trans ?_
  rw [Cert.Spec.relu_apply, shapeCast_self]
  rfl

variable (V : (c : Dev nD) → (b : Ref sig .tc) → Buf (Elt Ideal) ((c : Thread nD τ).loc b))

theorem hz2 : (![0, 0] : Fin 2 → Nat) = fun _ => 0 := funext fun a => by fin_cases a <;> rfl

theorem hz1 : (![0] : Fin 1 → Nat) = fun _ => 0 := funext fun a => by fin_cases a <;> rfl

/-- The printed index maps over the ten points: the input and the result move one block of rows per point, the weights
    and the biases stay at their only block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The input's block at point `t` is rows `5000 t … 5000 t + 4999` of the input. -/
theorem iblk_x_apply (c : Dev nD) (t : Fin cfg1.N) (x : S5000x128.Idx) (k : S50000x128.Idx)
    (hk0 : (k 0).val = 5000 * t.val + (x 0).val) (hk1 : (k 1).val = (x 1).val) :
    (iblk1 (F := Ideal) V c 0 t : Vec Ideal S5000x128 .f32) x = (V c main_v40 : S50000x128.Idx → Elt Ideal .f32) k := by
  obtain ⟨e0, e1, -⟩ := idx_facts t
  unfold iblk1
  rw [View.read_apply]
  show V c main_v40 _ = V c main_v40 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The first weights' block at every point is the whole matrix. -/
theorem iblk_w1 (c : Dev nD) (t : Fin cfg1.N) :
    (iblk1 (F := Ideal) V c 1 t : Vec Ideal S128x256 .f32) = (V c main_arg4 : S128x256.Idx → Elt Ideal .f32) := by
  obtain ⟨-, -, e2, e3, -⟩ := idx_facts t
  funext x
  unfold iblk1
  rw [View.read_apply]
  show V c main_arg4 _ = V c main_arg4 _
  congr 1
  funext a
  apply Fin.ext
  match a with
  | ⟨0, _⟩ => show win1_1.index t 0 * 128 + 1 * (x 0).val = (x 0).val; rw [e2]; omega
  | ⟨1, _⟩ => show win1_1.index t 1 * 256 + 1 * (x 1).val = (x 1).val; rw [e3]; omega

/-- The first bias's block at every point is the whole vector. -/
theorem iblk_b1 (c : Dev nD) (t : Fin cfg1.N) :
    (iblk1 (F := Ideal) V c 2 t : Vec Ideal S256 .f32) = (V c main_arg5 : S256.Idx → Elt Ideal .f32) := by
  obtain ⟨-, -, -, -, e4, -⟩ := idx_facts t
  funext x
  unfold iblk1
  rw [View.read_apply]
  show V c main_arg5 _ = V c main_arg5 _
  congr 1
  funext a
  apply Fin.ext
  match a with
  | ⟨0, _⟩ => show win1_2.index t 0 * 256 + 1 * (x 0).val = (x 0).val; rw [e4]; omega

/-- The second weights' block at every point is the whole matrix. -/
theorem iblk_w2 (c : Dev nD) (t : Fin cfg1.N) :
    (iblk1 (F := Ideal) V c 3 t : Vec Ideal S256x128 .f32) = (V c main_arg6 : S256x128.Idx → Elt Ideal .f32) := by
  obtain ⟨-, -, -, -, -, e5, e6, -⟩ := idx_facts t
  funext x
  unfold iblk1
  rw [View.read_apply]
  show V c main_arg6 _ = V c main_arg6 _
  congr 1
  funext a
  apply Fin.ext
  match a with
  | ⟨0, _⟩ => show win1_3.index t 0 * 256 + 1 * (x 0).val = (x 0).val; rw [e5]; omega
  | ⟨1, _⟩ => show win1_3.index t 1 * 128 + 1 * (x 1).val = (x 1).val; rw [e6]; omega

/-- The second bias's block at every point is the whole vector. -/
theorem iblk_b2 (c : Dev nD) (t : Fin cfg1.N) :
    (iblk1 (F := Ideal) V c 4 t : Vec Ideal S128 .f32) = (V c main_arg7 : S128.Idx → Elt Ideal .f32) := by
  obtain ⟨-, -, -, -, -, -, -, e7, -⟩ := idx_facts t
  funext x
  unfold iblk1
  rw [View.read_apply]
  show V c main_arg7 _ = V c main_arg7 _
  congr 1
  funext a
  apply Fin.ext
  match a with
  | ⟨0, _⟩ => show win1_4.index t 0 * 128 + 1 * (x 0).val = (x 0).val; rw [e7]; omega

/-- The perceptron of point `t`'s block of rows, at an entry, is the perceptron of the whole input at the entry of the
    array that the block's entry is: a row of the perceptron depends on that row of the input only. -/
theorem mlp_block (c : Dev nD) (t : Fin cfg1.N) (W₁ : FVec Ideal S128x256 .f32) (b₁ : FVec Ideal S256 .f32)
    (W₂ : FVec Ideal S256x128 .f32) (b₂ : FVec Ideal S128 .f32)
    (p : Fin 5000) (q : Fin 128) (k : S50000x128.Idx)
    (hk0 : (k 0).val = 5000 * t.val + p.val) (hk1 : (k 1).val = q.val) :
    Cert.Spec.mlp (iblk1 (F := Ideal) V c 0 t : Vec Ideal S5000x128 .f32) W₁ b₁ W₂ b₂ (ix2 p q)
      = Cert.Spec.mlp (V c main_v40 : FVec Ideal S50000x128 .f32) W₁ b₁ W₂ b₂ k := by
  obtain ⟨r, s, rfl⟩ : ∃ (r : Fin 50000) (s : Fin 128), k = ix2 r s := ⟨k 0, k 1, eq_ix2 k⟩
  obtain rfl : s = q := Fin.ext hk1
  exact Cert.Spec.mlp_congr_row _ _ W₁ b₁ W₂ b₂ p r s fun j => iblk_x_apply V c t (ix2 p j) (ix2 r j) hk0 rfl

/-- What point `t` writes back is block `t` of the perceptron of the arrays as the kernel finds them. -/
theorem flushed_eq (c : Dev nD) (t : Fin cfg1.N) :
    (dat1 (F := Ideal) V c).flushed 5 t
      = ((cfg1.win 5).blk t).view.read (Elt Ideal)
          (Cert.Spec.mlp (V c main_v40) (V c main_arg4) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x256) hz2, View.ld_unit_zero (S := S256) hz1,
    View.ld_unit_zero (S := S256x128) hz2, View.ld_unit_zero (S := S128) hz1]
  rw [pay_eq, iblk_w1, iblk_b1, iblk_w2, iblk_b2]
  obtain ⟨-, -, -, -, -, -, -, -, e8, e9⟩ := idx_facts t
  funext j
  obtain ⟨p, q, rfl⟩ : ∃ (p : Fin 5000) (q : Fin 128), j = ix2 p q := ⟨j 0, j 1, eq_ix2 j⟩
  refine mlp_block V c t _ _ _ _ p q (((cfg1.win 5).blk t).view.emb (ix2 p q)) ?_ ?_
  · show win1_5.index t 0 * 5000 + 1 * p.val = 5000 * t.val + p.val
    rw [e8]; omega
  · show win1_5.index t 1 * 128 + 1 * q.val = q.val
    rw [e9]; omega

/-- Every index of the result is in some point's block: row `r` is in the block of point `r / 5000`. -/
theorem cover (i : S50000x128.Idx) :
    ∃ t : Fin cfg1.N, (cfg1.win 5).flush t = true ∧ i ∈ ((cfg1.win 5).blk t).view.set := by
  have hN : cfg1.N = 10 := N_1
  have h0 : (i 0).val < 50000 := (i 0).isLt
  have h1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, -, e8, e9⟩ := idx_facts t
  refine ⟨t, flush1_5 t, ?_⟩
  show i ∈ ((View.whole main_v41).slice (win1_5.rect t)).set
  rw [View.set_slice_whole, Rect.mem_set_unit]
  intro a
  match a with
  | ⟨0, _⟩ =>
    show win1_5.index t 0 * 5000 ≤ (i 0).val ∧ (i 0).val < win1_5.index t 0 * 5000 + 5000
    rw [e8]; omega
  | ⟨1, _⟩ =>
    show win1_5.index t 1 * 128 ≤ (i 1).val ∧ (i 1).val < win1_5.index t 1 * 128 + 128
    rw [e9]; omega

/-- The result array after the kernel: the perceptron of the input, the weights and the biases as the kernel finds them. -/
theorem final (c : Dev nD) :
    (dat1 (F := Ideal) V c).arrAt 5 cfg1.N
      = Cert.Spec.mlp (V c main_v40) (V c main_arg4) (V c main_arg5) (V c main_arg6) (V c main_arg7) :=
  (dat1 V c).arrAt_eq_of_cover 5 _ (fun t _ => flushed_eq V c t) cover

end Cert.KernelIdeal.MlpValue

end
-- ==== Proof.Glue.lean ====
/-
  The message-passing step both programs share: from the projected node features `x_lin` and the edge list, add the self
  loops, count each node's degree, take `deg^(-1/2)`, weigh every edge's source row by the product of its two endpoints'
  factors, and add the weighted rows into their target nodes. Both programs spell it with the same host operations, so it is
  carried as ONE function `glue x_lin edges` and never opened: the two programs agree as soon as they feed it equal arrays.
-/
import proofs.«168051_j14551349199047_1_alg».proof.Proof.Gen.ReferenceIdeal.Read

noncomputable section

namespace Cert.ReferenceIdeal.RefValue

open Cert.ReferenceIdeal Cert.ReferenceIdeal.Gen Cert.ReferenceIdeal.Read Idealize.ShloMosaic

/-- The aggregation `m = segment_sum(x_lin[cols] · norm, rows)` as a function of `x_lin` and the edge list. -/
def glue (xl : FVec Ideal S50000x128 .f32) (e : (⟨S2x600000, .i32⟩ : BufTy).Contents (Elt Ideal)) :
    FVec Ideal S50000x128 .f32 :=
  Host.scatterAdd (F := Ideal) scatter_S50000x128_S650000x1_S650000x128_1_0_0_1 (val_main_v41 (F := Ideal)) (val_main_v42 (F := Ideal) e)
    (mulf (F := Ideal) (Host.gather gather_S50000x128_S650000x1_S650000x128_1_0_n_n_0_1_1128 xl (val_main_v36 (F := Ideal) e))
      (val_main_v39 (F := Ideal) e))

/-- The reference's aggregated features are `glue` of its projected features. -/
theorem val_main_v43_eq_glue (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal)) :
    val_main_v43 (F := Ideal) x0 x1 x2 x3 = glue (val_main_v3 (F := Ideal) x0 x2 x3) x1 := rfl

end Cert.ReferenceIdeal.RefValue

end
-- ==== Proof.KMid.lean ====
/-
  Between its two kernels the kernel program runs, on the host, the same message-passing step as the reference: from
  whatever the first kernel left in its result array and the edge list, the aggregated features are `glue` of the two.
  The step is read off the host operations' fold without being opened.
-/
import proofs.«168051_j14551349199047_1_alg».proof.Proof.Gen.KernelIdeal.Frame
import proofs.«168051_j14551349199047_1_alg».proof.Proof.Glue
import Idealize.ShloMosaic.Lib.StableHlo.Run

set_option maxRecDepth 16384

noncomputable section

namespace Cert.KernelIdeal.MidValue

open Cert.KernelIdeal Cert.KernelIdeal.Gen
open Idealize.ShloMosaic Idealize.ShloMosaic.TcCoe Idealize.SL.Sem Idealize.ShloMosaic.StableHlo

/-- From any buffer contents `W`, the host stretch between the kernels leaves in the second kernel's input array the
    aggregation of the first kernel's result array over the edge list. -/
theorem mid (W : Valuation τ sig (Elt Ideal)) :
    StableHlo.after (hostOps1 (F := Ideal)) W (Proc.devRef .tc main_v40)
      = Cert.ReferenceIdeal.RefValue.glue (W (Proc.devRef .tc main_v0)) (W (Proc.devRef .tc main_arg1)) := by
  after_results_simp
  rfl

end Cert.KernelIdeal.MidValue

end
-- ==== Proof.KRun.lean ====
/-
  The kernel program's run with its result named.

  The program is three segments: the first kernel over its ten row blocks, the host's message-passing step, the second kernel
  over its ten row blocks. The buffer contents at the segment boundaries are a fold from the launch memory; after the last
  segment every buffer holds the fold's last value `W3`. The frame only reads the argument buffers out of that final state;
  here the result buffer is read out of it as well, so that every weakly fair execution ends with the result array at
  `W3 … main_v41` — whose value the other modules compute — and the arguments as launched.
-/
import proofs.«168051_j14551349199047_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v41) = W3 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v41 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.RunValue

end
-- ==== Proof.Bridge.lean ====
/-
  The kernel program's result as one function of its arguments.

  Walking the fold of buffer contents back from the last boundary: the result array is the second kernel's output, the
  perceptron of its input array and the four weight arrays; its input array is what the host's message-passing step made
  of the first kernel's output and the edge list; the first kernel's output is the dense layer of `x`, `lin_w`, `lin_b`.
  The weight arrays and the edge list are never written, so each is read back to the launch memory. Together:

      result = mlp (glue (x · lin_w + lin_b) edges) w1 b1 w2 b2.
-/
import proofs.«168051_j14551349199047_1_alg».proof.Proof.KLin
import proofs.«168051_j14551349199047_1_alg».proof.Proof.KMlp
import proofs.«168051_j14551349199047_1_alg».proof.Proof.KMid
import proofs.«168051_j14551349199047_1_alg».proof.Proof.KRun

set_option maxRecDepth 16384

noncomputable section

namespace Cert.KernelIdeal.Bridge

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The function of the argument arrays that the kernel program's result array ends holding. -/
def result (c : Dev nD) : FVec Ideal S50000x128 .f32 :=
  Cert.Spec.mlp
    (Cert.ReferenceIdeal.RefValue.glue
      (Cert.Spec.affine (m ((c.tc : Thread nD τ).loc main_arg0)) (m ((c.tc : Thread nD τ).loc main_arg2)) (m ((c.tc : Thread nD τ).loc main_arg3)))
      (m ((c.tc : Thread nD τ).loc main_arg1)))
    (m ((c.tc : Thread nD τ).loc main_arg4)) (m ((c.tc : Thread nD τ).loc main_arg5))
    (m ((c.tc : Thread nD τ).loc main_arg6)) (m ((c.tc : Thread nD τ).loc main_arg7))

/-- The first kernel's output array after its region: the dense layer of the launch contents of `x`, `lin_w`, `lin_b`. -/
theorem xlin_eq (c : Dev nD) :
    W1 (F := Ideal) m ρ c (Proc.devRef .tc main_v0)
      = Cert.Spec.affine (m ((c.tc : Thread nD τ).loc main_arg0)) (m ((c.tc : Thread nD τ).loc main_arg2)) (m ((c.tc : Thread nD τ).loc main_arg3)) :=
  (W1_arr m ρ c 3).trans (Cert.KernelIdeal.LinValue.final (V0 m ρ) c)

/-- The edge list is as launched when the host step reads it. -/
theorem edges_eq (c : Dev nD) :
    W1 (F := Ideal) m ρ c (Proc.devRef .tc main_arg1) = m ((c.tc : Thread nD τ).loc main_arg1) :=
  W1_of_ne m ρ c main_arg1 (by decide)

/-- The second kernel's input array at its region's entry: the aggregation of the first kernel's output over the edges. -/
theorem agg_eq (c : Dev nD) :
    V2 (F := Ideal) m ρ c main_v40
      = Cert.ReferenceIdeal.RefValue.glue
          (Cert.Spec.affine (m ((c.tc : Thread nD τ).loc main_arg0)) (m ((c.tc : Thread nD τ).loc main_arg2)) (m ((c.tc : Thread nD τ).loc main_arg3)))
          (m ((c.tc : Thread nD τ).loc main_arg1)) := by
  show StableHlo.after (hostOps1 (F := Ideal)) (W1 m ρ c) (Proc.devRef .tc main_v40) = _
  rw [Cert.KernelIdeal.MidValue.mid (W1 m ρ c), xlin_eq m ρ c, edges_eq m ρ c]

/-- Each weight array of the second kernel is as launched at its region's entry: it is an input of that region, which
    leaves it in place, and the whole run leaves it as launched. -/
theorem w1_eq (c : Dev nD) : V2 (F := Ideal) m ρ c main_arg4 = m ((c.tc : Thread nD τ).loc main_arg4) :=
  ((W3_arr m ρ c 1).trans (((dat1 (V2 m ρ) c).arrAt_in 1 rfl _).trans (A_eq1 (V2 m ρ) c 1))).symm.trans (W3_main_arg4 m ρ c)
theorem b1_eq (c : Dev nD) : V2 (F := Ideal) m ρ c main_arg5 = m ((c.tc : Thread nD τ).loc main_arg5) :=
  ((W3_arr m ρ c 2).trans (((dat1 (V2 m ρ) c).arrAt_in 2 rfl _).trans (A_eq1 (V2 m ρ) c 2))).symm.trans (W3_main_arg5 m ρ c)
theorem w2_eq (c : Dev nD) : V2 (F := Ideal) m ρ c main_arg6 = m ((c.tc : Thread nD τ).loc main_arg6) :=
  ((W3_arr m ρ c 3).trans (((dat1 (V2 m ρ) c).arrAt_in 3 rfl _).trans (A_eq1 (V2 m ρ) c 3))).symm.trans (W3_main_arg6 m ρ c)
theorem b2_eq (c : Dev nD) : V2 (F := Ideal) m ρ c main_arg7 = m ((c.tc : Thread nD τ).loc main_arg7) :=
  ((W3_arr m ρ c 4).trans (((dat1 (V2 m ρ) c).arrAt_in 4 rfl _).trans (A_eq1 (V2 m ρ) c 4))).symm.trans (W3_main_arg7 m ρ c)

/-- The result array at the last boundary is `result`. -/
theorem value (c : Dev nD) : W3 (F := Ideal) m ρ c (Proc.devRef .tc main_v41) = result m c := by
  refine (W3_arr m ρ c 5).trans ((Cert.KernelIdeal.MlpValue.final (V2 m ρ) c).trans ?_)
  unfold result
  rw [agg_eq m ρ c, w1_eq m ρ c, b1_eq m ρ c, w2_eq m ρ c, b2_eq m ρ c]

/-- The kernel program's run: the result array ends at `result`, the arguments as launched. -/
theorem run : θ_run defs (onTc (τ := τ) (main (F := Ideal))) ⟨m, fun _ => 0, ρ⟩ (fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (value m ρ c), (h c).2⟩) (Cert.KernelIdeal.RunValue.run (F := Ideal) m ρ)

end Cert.KernelIdeal.Bridge

end
-- ==== Proof.RefSide.lean ====
/-
  The reference program's result is the specification.

  The reference computes the projected features `x·W + b`, hands them with the edge list to the message-passing step,
  and applies to the aggregated features a two-layer perceptron: positive part, dense layer, positive part, dense layer.
  Each dense layer is printed as a `dot_general` plus the bias broadcast first to one row and then down the rows, and
  each positive part as the maximum against the broadcast zero. Read entry by entry, these are the dense layer and the
  positive part of the specification; the message-passing step is carried unopened.
-/
import proofs.«168051_j14551349199047_1_alg».proof.Proof.Glue
import proofs.«168051_j14551349199047_1_alg».proof.Proof.Spec
import proofs.«168051_j14551349199047_1_alg».proof.Proof.LibRowOps

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The host's dense layer as an array: a `dot_general` with the plain dimension numbers, plus the bias broadcast to one
    row and that row broadcast down the rows, is `A·B + b`. -/
theorem host_affine_eq {m k n : Nat} (dd : DotDims ⟨2, ![m, k]⟩ ⟨2, ![k, n]⟩ ⟨2, ![m, n]⟩)
    (hdd : dd = DotDims.plain m k n)
    (A : FVec Ideal ⟨2, ![m, k]⟩ .f32) (B : FVec Ideal ⟨2, ![k, n]⟩ .f32) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) :
    addf (Host.dotGeneral dd none A B)
        (broadcastInDim ⟨2, ![m, n]⟩ ![0, 1] hd2 (broadcastInDim ⟨2, ![1, n]⟩ ![1] hd1 b))
      = Cert.Spec.affine A B b := by
  funext i
  obtain ⟨r, c, rfl⟩ : ∃ (r : Fin m) (c : Fin n), i = ix2 r c := ⟨i 0, i 1, eq_ix2 i⟩
  rw [Cert.Spec.affine_ix2]
  exact Cert.LibRowOps.host_affine_apply dd hdd none A B b hd1 hd2 r c

/-- The maximum against the zero scalar broadcast to every entry is the positive part. -/
theorem host_relu_eq {s : Shape} (M : FVec Ideal s .f32) (hb : (⟨0, ![]⟩ : Shape).BroadcastsInDim s ![]) :
    maximumf M (broadcastInDim s ![] hb (constant (F := Ideal) ⟨0, ![]⟩ .f32 0x00000000#32)) = Cert.Spec.relu M := by
  funext i
  rw [maximumf_apply, Cert.Spec.relu_apply]
  refine congrArg (max (M i) ·) ?_
  exact broadcastInDim_apply ![] hb _ i ix0 (fun a => a.elim0)

/-- The reference's projected features are the dense layer `x·W + b`. -/
theorem lin_eq (x0 : FVec Ideal S50000x128 .f32) (x2 : FVec Ideal S128x128 .f32) (x3 : FVec Ideal S128 .f32) :
    val_main_v3 (F := Ideal) x0 x2 x3 = Cert.Spec.affine x0 x2 x3 := by
  unfold val_main_v3 val_main_v0 val_main_v2 val_main_v1
  exact host_affine_eq _ rfl x0 x2 x3 _ _

/-- The reference's last ten operations, applied to any array of aggregated features, are the perceptron. -/
theorem mlp_eq (M : FVec Ideal S50000x128 .f32) (x4 : FVec Ideal S128x256 .f32) (x5 : FVec Ideal S256 .f32)
    (x6 : FVec Ideal S256x128 .f32) (x7 : FVec Ideal S128 .f32) :
    addf (Host.dotGeneral dot_S50000x256_S256x128_S50000x128_1_0_0_1_n_n none
          (maximumf (addf (Host.dotGeneral dot_S50000x128_S128x256_S50000x256_1_0_0_1_n_n none
              (maximumf M (val_main_call0_v0 (F := Ideal))) x4) (val_main_v47 (F := Ideal) x5))
            (val_main_call1_v0 (F := Ideal))) x6) (val_main_v52 (F := Ideal) x7)
      = Cert.Spec.mlp M x4 x5 x6 x7 := by
  unfold Cert.Spec.mlp
  have h0 : maximumf M (val_main_call0_v0 (F := Ideal)) = Cert.Spec.relu M := host_relu_eq M bcast_S_S50000x128
  rw [h0]
  have h1 : addf (Host.dotGeneral dot_S50000x128_S128x256_S50000x256_1_0_0_1_n_n none (Cert.Spec.relu M) x4)
      (val_main_v47 (F := Ideal) x5) = Cert.Spec.affine (Cert.Spec.relu M) x4 x5 :=
    host_affine_eq _ rfl (Cert.Spec.relu M) x4 x5 bcast_S256_S1x256_1 bcast_S1x256_S50000x256_0_1
  rw [h1]
  have h2 : maximumf (Cert.Spec.affine (Cert.Spec.relu M) x4 x5) (val_main_call1_v0 (F := Ideal))
      = Cert.Spec.relu (Cert.Spec.affine (Cert.Spec.relu M) x4 x5) := host_relu_eq _ bcast_S_S50000x256
  rw [h2]
  exact host_affine_eq _ rfl _ x6 x7 bcast_S128_S1x128_1 bcast_S1x128_S50000x128_0_1

/-- The reference's result, from the arguments of its entry function. -/
theorem val_main_v53_eq_spec (x0 : FVec Ideal S50000x128 .f32) (x1 : (⟨S2x600000, .i32⟩ : BufTy).Contents (Elt Ideal))
    (x2 : FVec Ideal S128x128 .f32) (x3 : FVec Ideal S128 .f32) (x4 : FVec Ideal S128x256 .f32) (x5 : FVec Ideal S256 .f32)
    (x6 : FVec Ideal S256x128 .f32) (x7 : FVec Ideal S128 .f32) :
    val_main_v53 (F := Ideal) x0 x1 x2 x3 x4 x5 x6 x7
      = Cert.Spec.mlp (glue (Cert.Spec.affine x0 x2 x3) x1) x4 x5 x6 x7 := by
  rw [← lin_eq x0 x2 x3, ← val_main_v43_eq_glue x0 x1 x2 x3]
  exact mlp_eq (val_main_v43 (F := Ideal) x0 x1 x2 x3) x4 x5 x6 x7

/-- The reference program's result is the perceptron of the aggregated projected features. -/
theorem result_eq (m : (ℓ : Loc nD τ sig) → Buf (Elt Ideal) ℓ) (c : Dev nD) :
    Cert.ReferenceIdeal.Value.res_main_v53 (F := Ideal) m c
      = Cert.Spec.mlp (glue (Cert.Spec.affine (m ((c.tc : Thread nD τ).loc main_arg0)) (m ((c.tc : Thread nD τ).loc main_arg2)) (m ((c.tc : Thread nD τ).loc main_arg3))) (m ((c.tc : Thread nD τ).loc main_arg1)))
          (m ((c.tc : Thread nD τ).loc main_arg4)) (m ((c.tc : Thread nD τ).loc main_arg5)) (m ((c.tc : Thread nD τ).loc main_arg6)) (m ((c.tc : Thread nD τ).loc main_arg7)) := by
  rw [Read.val_main_v53_eq]
  exact val_main_v53_eq_spec _ _ _ _ _ _ _ _

end Cert.ReferenceIdeal.RefValue

end
-- ==== Proof.lean ====
/-
  A graph-convolution layer followed by a two-layer perceptron, as a tiled kernel program and as plain array code.

  Both programs compute, for node features `x` and an edge list,

      x_lin = x · lin_w + lin_b                                   (a dense layer)
      m     = Σ over edges (with self loops) of  x_lin[col] · deg[row]^(-1/2) · deg[col]^(-1/2)   into row   (message passing)
      out   = relu(relu(m) · w1 + b1) · w2 + b2                     (the perceptron).

  The kernel program runs the dense layer and the perceptron as two kernels, each over ten blocks of 5000 rows, with the
  matrix factors narrowed to a shorter float format on the way into the products; the message-passing step it leaves to the
  host, spelt exactly as the reference spells it. On the extended reals a change of float format is the identity and a matrix
  product accumulated into zero is the plain sum of products, so each kernel computes on its block of rows what the reference
  computes on the whole array; and since a row of a dense layer (and of the perceptron) depends only on the same row of its
  input, the ten blocks of rows put side by side ARE the whole-array result. The message-passing step is the same function
  on both sides and is never opened. No algebraic law is used that could fail at an infinity, so the precondition is not
  needed for the values.

  The pieces: `Spec` (the dense layer, the perceptron, their row locality), `Glue` (the shared message-passing step as one
  function), `KLin` / `KMlp` (each kernel's output array as the spec of its input arrays), `KMid` (the host step between the
  kernels), `KRun` (the kernel program's run with its result named), `Bridge` (the result as one function of the arguments),
  `RefSide` (the reference's result as the same function).
-/
import proofs.«168051_j14551349199047_1_alg».proof.Defs
import proofs.«168051_j14551349199047_1_alg».proof.Proof.Gen.Kernel
import proofs.«168051_j14551349199047_1_alg».proof.Proof.Gen.Kernel.Frame
import proofs.«168051_j14551349199047_1_alg».proof.Proof.Gen.KernelIdeal
import proofs.«168051_j14551349199047_1_alg».proof.Proof.Gen.KernelIdeal.Frame
import proofs.«168051_j14551349199047_1_alg».proof.Proof.Gen.ReferenceIdeal
import proofs.«168051_j14551349199047_1_alg».proof.Proof.Gen.ReferenceIdeal.Run
import proofs.«168051_j14551349199047_1_alg».proof.Proof.Gen.ReferenceIdeal.Read
import proofs.«168051_j14551349199047_1_alg».proof.Proof.Gen.Pre_finite_inputs
import proofs.«168051_j14551349199047_1_alg».proof.Proof.Bridge
import proofs.«168051_j14551349199047_1_alg».proof.Proof.RefSide
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories agreeing on the arguments both programs end with the result array at
    `mlp (glue (x · lin_w + lin_b) edges) w1 b1 w2 b2`. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.RefValue.result_eq m' c, e0, e1, e2, e3, e4, e5, e6, e7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
